-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : FVec F S256x128 .f32) (main_arg2 : FVec F S128 .f32) (main_arg3 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S256x128 : Shape := ⟨2, ![256, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S100000x128 : Shape := ⟨2, ![100000, 128]⟩
abbrev S1000x256 : Shape := ⟨2, ![1000, 256]⟩
abbrev S1000x128 : Shape := ⟨2, ![1000, 128]⟩
abbrev S2000x128 : Shape := ⟨2, ![2000, 128]⟩
abbrev S2000x1 : Shape := ⟨2, ![2000, 1]⟩
abbrev S1600000x128 : Shape := ⟨2, ![1600000, 128]⟩

abbrev nBuf : Space → Nat
  | .hbm => 54
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S1x128, .f32⟩
  | .hbm, ⟨23, _⟩ => ⟨S100000x128, .f32⟩
  | .hbm, ⟨24, _⟩ => ⟨S100000x128, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S128_S1x128 : S128.ShapeCasts S1x128
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S1000x256_S256x128_S1000x128_1_0_0_1_n_n_wf : DotDims.WF S1000x256 S256x128 S1000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S100000x128.size a
  hwx0_3 : ∀ i : grid0.Coords, EltTy.bits .f32 = 32 ∨ (Rect.block (s := S100000x128) S1000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v27) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v39) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The run of the five-call program with its result named.

  The program is eight segments: host lines, the projection call, the first scaling call, host lines (gather and
  scatter-add along the edges), the first combining call, the second scaling call, host lines again, and the second
  combining call.  The buffer contents at each boundary are a fold from the launch memory; the last of them is `W8`.
  Every weakly fair execution terminates, nothing faulting, and the final memory agrees with `W8` on every buffer
  that is not scoped to a call: so the result buffer ends at `W8` read at the result, and the four arguments end as
  launched.  The statement differs from the frame only in keeping the result's equation.
-/
import proofs.«102788_j77841987272990_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at the result, and each argument what it held at launch. -/
theorem run_result : θ_run defs (onTc (τ := τ) (main (F := F))) ⟨m, fun _ => 0, ρ⟩ (fun r => ∀ c : Dev nD,
      r.2.mem ((c.tc : Thread nD τ).loc main_v39) = W8 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v39 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.Run

end
-- ==== Proof.Edges.lean ====
/-
  The host lines of the kernel's program, as functions of the edge list.

  From the edge list e (row 0: the destination of each edge, row 1: its source) the program computes, with host
  operations, the column of normalising factors — for node p, one over the square root of one plus the number of edges
  arriving at p — and, twice, the aggregation of a feature matrix: the rows gathered at the edges' sources (a negative
  source index wrapped around once) and summed into the rows of the edges' destinations.  Both are kept here as the
  host's own terms and never opened: the reference computes them with the same operations.
-/
import proofs.«102788_j77841987272990_1_alg».proof.Proof.Gen.KernelIdeal.Frame
import Idealize.ShloMosaic.Lib.StableHlo.Run
import Idealize.ShloMosaic.PureOps.Ideal

set_option maxRecDepth 16384

noncomputable section

namespace Cert.KernelIdeal.Edges

open Cert.KernelIdeal Cert.KernelIdeal.Gen Idealize.ShloMosaic Idealize.ShloMosaic.TcCoe Idealize.SL.Sem Idealize.ShloMosaic.StableHlo

/-- The destinations of the edges: row 0 of the edge list. -/
def dst (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The sources of the edges: row 1 of the edge list. -/
def src (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The column of normalising factors from the destinations. -/
def normOf (d : (⟨S1600000, .i32⟩ : BufTy).Contents (Elt Ideal)) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (Host.sqrt (F := Ideal) (addf (broadcastInDim S100000 ![] bcast_S_S100000 (constant (F := Ideal) S_ .f32 0x3F800000#32))
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 d)
          (broadcastInDim S1600000 ![] bcast_S_S1600000 (constant (F := Ideal) S_ .f32 0x3F800000#32))))))

/-- The aggregation of a feature matrix along edges with destinations d and sources s. -/
def aggOf (d s : (⟨S1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

variable (m : (ℓ : Loc nD τ sig) → Buf (Elt Ideal) ℓ) (ρ : Dev nD → PrngReg)

/-! ## Before the first call -/

theorem W1_arg0 (c : Dev nD) : W1 m ρ c (Proc.devRef .tc main_arg0) = m ((c.tc : Thread nD τ).loc main_arg0) := by
  show StableHlo.after hostOps0 (W0 m ρ c) (Proc.devRef .tc main_arg0) = _
  after_results
theorem W1_arg1 (c : Dev nD) : W1 m ρ c (Proc.devRef .tc main_arg1) = m ((c.tc : Thread nD τ).loc main_arg1) := by
  show StableHlo.after hostOps0 (W0 m ρ c) (Proc.devRef .tc main_arg1) = _
  after_results
theorem W1_bias (c : Dev nD) : W1 m ρ c (Proc.devRef .tc main_v14)
    = shapeCast _ (m ((c.tc : Thread nD τ).loc main_arg2)) shapeCasts_S128_S1x128 := by
  show StableHlo.after hostOps0 (W0 m ρ c) (Proc.devRef .tc main_v14) = _
  after_results
  rfl
theorem W1_dst (c : Dev nD) : W1 m ρ c (Proc.devRef .tc main_v1) = dst (m ((c.tc : Thread nD τ).loc main_arg3)) := by
  show StableHlo.after hostOps0 (W0 m ρ c) (Proc.devRef .tc main_v1) = _
  after_results
  rfl
theorem W1_src (c : Dev nD) : W1 m ρ c (Proc.devRef .tc main_v3) = src (m ((c.tc : Thread nD τ).loc main_arg3)) := by
  show StableHlo.after hostOps0 (W0 m ρ c) (Proc.devRef .tc main_v3) = _
  after_results
  rfl
theorem W1_norm (c : Dev nD) : W1 m ρ c (Proc.devRef .tc main_v13) = normOf (dst (m ((c.tc : Thread nD τ).loc main_arg3))) := by
  show StableHlo.after hostOps0 (W0 m ρ c) (Proc.devRef .tc main_v13) = _
  after_results
  rfl

/-! ## Between the first scaling call and the first combining call -/

theorem W4_agg (c : Dev nD) : W4 m ρ c (Proc.devRef .tc main_v26)
    = aggOf (W3 m ρ c (Proc.devRef .tc main_v1)) (W3 m ρ c (Proc.devRef .tc main_v3)) (W3 m ρ c (Proc.devRef .tc main_v16)) := by
  show StableHlo.after hostOps2 (W3 m ρ c) (Proc.devRef .tc main_v26) = _
  after_results
  rfl
theorem W4_keep (c : Dev nD) (b : Ref sig .tc) (hb : b = main_v16 ∨ b = main_v13 ∨ b = main_v1 ∨ b = main_v3) :
    W4 m ρ c (Proc.devRef .tc b) = W3 m ρ c (Proc.devRef .tc b) := by
  rcases hb with rfl | rfl | rfl | rfl <;>
  · show StableHlo.after hostOps2 (W3 m ρ c) (Proc.devRef .tc _) = _
    after_results

/-! ## Between the second scaling call and the second combining call -/

theorem W7_agg (c : Dev nD) : W7 m ρ c (Proc.devRef .tc main_v38)
    = aggOf (W6 m ρ c (Proc.devRef .tc main_v1)) (W6 m ρ c (Proc.devRef .tc main_v3)) (W6 m ρ c (Proc.devRef .tc main_v28)) := by
  show StableHlo.after hostOps4 (W6 m ρ c) (Proc.devRef .tc main_v38) = _
  after_results
  rfl
theorem W7_keep (c : Dev nD) (b : Ref sig .tc) (hb : b = main_v28 ∨ b = main_v13) :
    W7 m ρ c (Proc.devRef .tc b) = W6 m ρ c (Proc.devRef .tc b) := by
  rcases hb with rfl | rfl <;>
  · show StableHlo.after hostOps4 (W6 m ρ c) (Proc.devRef .tc _) = _
    after_results

end Cert.KernelIdeal.Edges

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibConvSteps.lean ====
/-
  The steps of a two-layer graph convolution without nonlinearity, written entry by entry on the extended reals,
  and each step in the two spellings a program gives it.

  With n the column of normalising factors, one layer sends a feature matrix h to
      comb n (agg (scale n h)) (scale n h),
  where scale n h multiplies row p of h by n(p, 0), agg sums the rows of its argument along the edges into their
  destination rows, and comb n g h multiplies row p of g + h by n(p, 0).  The first feature matrix is the projection
  lin x w bias, entry (p, q) being the sum over k of x(p, k) · w(k, q) plus bias(q).

  A host program spells scale and comb with the factor on the left of the product and the column broadcast along the
  rows; a vector unit spells them with the factor on the right and a vector broadcast.  The two agree because a product
  of extended reals commutes: no distributive law and no cancellation is used, so no operand has to be finite.  The
  aggregation is left as a parameter: both programs compute it with the same host operations.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws
import proofs.«102788_j77841987272990_1_alg».proof.Proof.LibLayout
import proofs.«102788_j77841987272990_1_alg».proof.Proof.LibMatmulIx

noncomputable section

namespace Cert.Conv

open Idealize.ShloMosaic Idealize.ShloMosaic.ValueIdx

variable {a b K : ℕ}

/-! ## The steps, entry by entry -/

/-- The projection with its bias given as a one-row matrix: entry (p, q) is the sum over k of x(p, k) · w(k, q),
    plus the row's entry q. -/
def linRow (x : FVec Ideal ⟨2, ![a, K]⟩ .f32) (w : FVec Ideal ⟨2, ![K, b]⟩ .f32) (brow : FVec Ideal ⟨2, ![1, b]⟩ .f32) :
    FVec Ideal ⟨2, ![a, b]⟩ .f32 :=
  fun i => (∑ k : Fin K, x (ix2 (i 0) k) * w (ix2 k (i 1))) + brow (ix2 (0 : Fin 1) (i 1))

/-- The projection with its bias given as a vector. -/
def lin (x : FVec Ideal ⟨2, ![a, K]⟩ .f32) (w : FVec Ideal ⟨2, ![K, b]⟩ .f32) (bias : FVec Ideal ⟨1, ![b]⟩ .f32) :
    FVec Ideal ⟨2, ![a, b]⟩ .f32 :=
  fun i => (∑ k : Fin K, x (ix2 (i 0) k) * w (ix2 k (i 1))) + bias (ix1 (i 1))

/-- Row p of h multiplied by the factor n(p, 0). -/
def scale (n : FVec Ideal ⟨2, ![a, 1]⟩ .f32) (h : FVec Ideal ⟨2, ![a, b]⟩ .f32) : FVec Ideal ⟨2, ![a, b]⟩ .f32 :=
  fun i => h i * n (ix2 (i 0) (0 : Fin 1))

/-- Row p of g + h multiplied by the factor n(p, 0). -/
def comb (n : FVec Ideal ⟨2, ![a, 1]⟩ .f32) (g h : FVec Ideal ⟨2, ![a, b]⟩ .f32) : FVec Ideal ⟨2, ![a, b]⟩ .f32 :=
  fun i => (g i + h i) * n (ix2 (i 0) (0 : Fin 1))

/-- Two layers from the projected features h0, for any aggregation. -/
def twoLayers (n : FVec Ideal ⟨2, ![a, 1]⟩ .f32) (agg : FVec Ideal ⟨2, ![a, b]⟩ .f32 → FVec Ideal ⟨2, ![a, b]⟩ .f32)
    (h0 : FVec Ideal ⟨2, ![a, b]⟩ .f32) : FVec Ideal ⟨2, ![a, b]⟩ .f32 :=
  comb n (agg (scale n (comb n (agg (scale n h0)) (scale n h0)))) (scale n (comb n (agg (scale n h0)) (scale n h0)))

theorem linRow_apply (x : FVec Ideal ⟨2, ![a, K]⟩ .f32) (w : FVec Ideal ⟨2, ![K, b]⟩ .f32) (brow : FVec Ideal ⟨2, ![1, b]⟩ .f32)
    (p : Fin a) (q : Fin b) :
    linRow x w brow (ix2 p q) = (∑ k : Fin K, x (ix2 p k) * w (ix2 k q)) + brow (ix2 (0 : Fin 1) q) := rfl

theorem lin_apply (x : FVec Ideal ⟨2, ![a, K]⟩ .f32) (w : FVec Ideal ⟨2, ![K, b]⟩ .f32) (bias : FVec Ideal ⟨1, ![b]⟩ .f32)
    (p : Fin a) (q : Fin b) :
    lin x w bias (ix2 p q) = (∑ k : Fin K, x (ix2 p k) * w (ix2 k q)) + bias (ix1 q) := rfl

theorem scale_apply (n : FVec Ideal ⟨2, ![a, 1]⟩ .f32) (h : FVec Ideal ⟨2, ![a, b]⟩ .f32) (p : Fin a) (q : Fin b) :
    scale n h (ix2 p q) = h (ix2 p q) * n (ix2 p (0 : Fin 1)) := rfl

theorem comb_apply (n : FVec Ideal ⟨2, ![a, 1]⟩ .f32) (g h : FVec Ideal ⟨2, ![a, b]⟩ .f32) (p : Fin a) (q : Fin b) :
    comb n g h (ix2 p q) = (g (ix2 p q) + h (ix2 p q)) * n (ix2 p (0 : Fin 1)) := rfl

/-- Equal arguments give equal results (stated for use where the arguments are long terms). -/
theorem scale_congr {n n' : FVec Ideal ⟨2, ![a, 1]⟩ .f32} {h h' : FVec Ideal ⟨2, ![a, b]⟩ .f32} (en : n = n') (eh : h = h') :
    scale n h = scale n' h' := by subst en; subst eh; rfl

theorem comb_congr {n n' : FVec Ideal ⟨2, ![a, 1]⟩ .f32} {g g' h h' : FVec Ideal ⟨2, ![a, b]⟩ .f32}
    (en : n = n') (eg : g = g') (eh : h = h') : comb n g h = comb n' g' h' := by subst en; subst eg; subst eh; rfl

theorem linRow_congr {x x' : FVec Ideal ⟨2, ![a, K]⟩ .f32} {w w' : FVec Ideal ⟨2, ![K, b]⟩ .f32}
    {r r' : FVec Ideal ⟨2, ![1, b]⟩ .f32} (ex : x = x') (ew : w = w') (er : r = r') :
    linRow x w r = linRow x' w' r' := by subst ex; subst ew; subst er; rfl

/-- A bias vector cast to one row gives the same projection. -/
theorem linRow_cast (x : FVec Ideal ⟨2, ![a, K]⟩ .f32) (w : FVec Ideal ⟨2, ![K, b]⟩ .f32) (bias : FVec Ideal ⟨1, ![b]⟩ .f32)
    (hc : (⟨1, ![b]⟩ : Shape).ShapeCasts ⟨2, ![1, b]⟩) :
    linRow x w (shapeCast ⟨2, ![1, b]⟩ bias hc) = lin x w bias := by
  funext i
  obtain ⟨p, q, rfl⟩ : ∃ (p : Fin a) (q : Fin b), i = ix2 p q := ⟨i 0, i 1, eq_ix2 i⟩
  rw [linRow_apply, lin_apply, shapeCast_a_1a_apply]

/-! ## The host's spelling -/

/-- The column of factors broadcast along the rows reads, at (p, q), the factor of row p. -/
theorem colBroadcast_apply (n : FVec Ideal ⟨2, ![a, 1]⟩ .f32)
    (hb : (⟨2, ![a, 1]⟩ : Shape).BroadcastsInDim ⟨2, ![a, b]⟩ ![0, 1]) (p : Fin a) (q : Fin b) :
    broadcastInDim ⟨2, ![a, b]⟩ ![0, 1] hb n (ix2 p q) = n (ix2 p (0 : Fin 1)) :=
  broadcastInDim_apply ![0, 1] hb n (ix2 p q) (ix2 p (0 : Fin 1)) (fun c => by
    match c with
    | ⟨0, _⟩ =>
      show p.val = if a = 1 then 0 else p.val
      split
      · have := p.isLt; omega
      · rfl
    | ⟨1, _⟩ => show (0 : ℕ) = if (1 : ℕ) = 1 then 0 else _; rw [if_pos rfl])

/-- The host's scaling, the broadcast factor on the left, is scale. -/
theorem host_scale (n : FVec Ideal ⟨2, ![a, 1]⟩ .f32) (h : FVec Ideal ⟨2, ![a, b]⟩ .f32)
    (hb : (⟨2, ![a, 1]⟩ : Shape).BroadcastsInDim ⟨2, ![a, b]⟩ ![0, 1]) :
    mulf (broadcastInDim ⟨2, ![a, b]⟩ ![0, 1] hb n) h = scale n h := by
  funext i
  obtain ⟨p, q, rfl⟩ : ∃ (p : Fin a) (q : Fin b), i = ix2 p q := ⟨i 0, i 1, eq_ix2 i⟩
  rw [mulf_apply, colBroadcast_apply, scale_apply, mul_comm]

/-- The host's sum scaled, the broadcast factor on the left, is comb. -/
theorem host_comb (n : FVec Ideal ⟨2, ![a, 1]⟩ .f32) (g h : FVec Ideal ⟨2, ![a, b]⟩ .f32)
    (hb : (⟨2, ![a, 1]⟩ : Shape).BroadcastsInDim ⟨2, ![a, b]⟩ ![0, 1]) :
    mulf (broadcastInDim ⟨2, ![a, b]⟩ ![0, 1] hb n) (addf g h) = comb n g h := by
  funext i
  obtain ⟨p, q, rfl⟩ : ∃ (p : Fin a) (q : Fin b), i = ix2 p q := ⟨i 0, i 1, eq_ix2 i⟩
  rw [mulf_apply, colBroadcast_apply, addf_apply, comb_apply, mul_comm]

/-- The host's projection — a product contracting the left operand's columns with the right operand's rows, plus the
    bias broadcast to one row and then along the rows — is lin. -/
theorem host_lin (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ .f32) (w : FVec Ideal ⟨2, ![K, b]⟩ .f32) (bias : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) :
    addf (Host.dotGeneral D prec x w)
        (broadcastInDim ⟨2, ![a, b]⟩ ![0, 1] h2 (broadcastInDim ⟨2, ![1, b]⟩ ![1] h1 bias))
      = lin x w bias := by
  funext i
  obtain ⟨p, q, rfl⟩ : ∃ (p : Fin a) (q : Fin b), i = ix2 p q := ⟨i 0, i 1, eq_ix2 i⟩
  have e3 : broadcastInDim ⟨2, ![1, b]⟩ ![1] h1 bias (ix2 (0 : Fin 1) q) = bias (ix1 q) :=
    broadcastInDim_apply ![1] h1 bias (ix2 (0 : Fin 1) q) (ix1 q) (fun c => by
      match c with
      | ⟨0, _⟩ =>
        show q.val = if b = 1 then 0 else q.val
        split
        · have := q.isLt; omega
        · rfl)
  rw [addf_apply, MatmulIx.dotGeneral_ix2 D hr hs hl0 hl1 hr0 hr1 prec x w p q, broadcastInDim_oneRow_apply, e3, lin_apply]

/-! ## The vector unit's spelling, on a block of rows -/

/-- The vector unit's scaling — the factor column broadcast along the rows, on the right of the product — is scale. -/
theorem vec_scale (h : FVec Ideal ⟨2, ![a, b]⟩ .f32) (n : FVec Ideal ⟨2, ![a, 1]⟩ .f32)
    (hc1 : (⟨2, ![a, b]⟩ : Shape).ShapeCasts ⟨2, ![a, b]⟩) (hc2 : (⟨2, ![a, 1]⟩ : Shape).ShapeCasts ⟨2, ![a, 1]⟩)
    (hb : (⟨2, ![a, 1]⟩ : Shape).Broadcasts ⟨2, ![a, b]⟩) :
    mulf (shapeCast ⟨2, ![a, b]⟩ h hc1) (broadcastTo ⟨2, ![a, b]⟩ (shapeCast ⟨2, ![a, 1]⟩ n hc2) hb) = scale n h := by
  funext i
  obtain ⟨p, q, rfl⟩ : ∃ (p : Fin a) (q : Fin b), i = ix2 p q := ⟨i 0, i 1, eq_ix2 i⟩
  rw [shapeCast_self, shapeCast_self, mulf_apply, Cert.Attn.Layout.broadcastTo_a1_ab_apply, scale_apply]

/-- The vector unit's sum scaled is comb. -/
theorem vec_comb (g h : FVec Ideal ⟨2, ![a, b]⟩ .f32) (n : FVec Ideal ⟨2, ![a, 1]⟩ .f32)
    (hc1 hc1' : (⟨2, ![a, b]⟩ : Shape).ShapeCasts ⟨2, ![a, b]⟩) (hc2 : (⟨2, ![a, 1]⟩ : Shape).ShapeCasts ⟨2, ![a, 1]⟩)
    (hb : (⟨2, ![a, 1]⟩ : Shape).Broadcasts ⟨2, ![a, b]⟩) :
    mulf (addf (shapeCast ⟨2, ![a, b]⟩ g hc1) (shapeCast ⟨2, ![a, b]⟩ h hc1'))
        (broadcastTo ⟨2, ![a, b]⟩ (shapeCast ⟨2, ![a, 1]⟩ n hc2) hb) = comb n g h := by
  funext i
  obtain ⟨p, q, rfl⟩ : ∃ (p : Fin a) (q : Fin b), i = ix2 p q := ⟨i 0, i 1, eq_ix2 i⟩
  rw [shapeCast_self, shapeCast_self, shapeCast_self, mulf_apply, addf_apply,
    Cert.Attn.Layout.broadcastTo_a1_ab_apply, comb_apply]

/-- The vector unit's projection — both operands narrowed, multiplied into the zero splat, the bias row broadcast
    along the rows and added — is linRow: narrowing changes no value. -/
theorem vec_lin (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ .f32) (w : FVec Ideal ⟨2, ![K, b]⟩ .f32) (brow : FVec Ideal ⟨2, ![1, b]⟩ .f32)
    (hx : FTy.bf16.bits < FTy.f32.bits)
    (hc : (⟨2, ![1, b]⟩ : Shape).ShapeCasts ⟨2, ![1, b]⟩) (hb : (⟨2, ![1, b]⟩ : Shape).Broadcasts ⟨2, ![a, b]⟩) :
    addf (matmul D prec (truncf .bf16 x hx) (truncf .bf16 w hx) (constant (F := Ideal) ⟨2, ![a, b]⟩ .f32 0x00000000#32))
        (broadcastTo ⟨2, ![a, b]⟩ (shapeCast ⟨2, ![1, b]⟩ brow hc) hb)
      = linRow x w brow := by
  funext i
  obtain ⟨p, q, rfl⟩ : ∃ (p : Fin a) (q : Fin b), i = ix2 p q := ⟨i 0, i 1, eq_ix2 i⟩
  rw [shapeCast_self, addf_apply, MatmulIx.matmul_zero_ix2 D hr hs hl0 hl1 hr0 hr1 prec _ _ p q,
    broadcastTo_1b_ab_apply, linRow_apply]
  rfl

end Cert.Conv

end
-- ==== Proof.Lin0.lean ====
/-
  The projection call: what it leaves in its output array.

  The call walks 100 blocks of 1000 rows.  At block t it reads rows 1000·t … 1000·t + 999 of x, the whole of w and the
  one-row bias, multiplies the block of x by w (both narrowed first, which changes no value on the extended reals),
  adds the bias row to every row, and writes the block back to the same rows of the output.  Entry (p, q) of a block's
  product only reads row p of x, so the blocks are the restrictions of one function of the whole arrays: the output
  array ends holding linRow x w bias, whatever the arrays held when the call was entered.
-/
import proofs.«102788_j77841987272990_1_alg».proof.Proof.Gen.KernelIdeal.Frame
import Idealize.ShloMosaic.Lib.Pipeline.Value
import proofs.«102788_j77841987272990_1_alg».proof.Proof.LibConvSteps

set_option maxRecDepth 16384

noncomputable section

namespace Cert.KernelIdeal.Lin0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! The block product contracts the columns of its left operand with the rows of its right operand: where each
    operand is read for output entry i and contracted coordinate q. -/

theorem lhs0 (i : S1000x128.Idx) (q : dot_S1000x256_S256x128_S1000x128_1_0_0_1_n_n.contr.Idx) : (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem lhs1 (i : S1000x128.Idx) (q : dot_S1000x256_S256x128_S1000x128_1_0_0_1_n_n.contr.Idx) : (dot_S1000x256_S256x128_S1000x128_1_0_0_1_n_n.lhsIdx i q 1).val = (q ⟨0, by decide⟩).val :=
  dot_S1000x256_S256x128_S1000x128_1_0_0_1_n_n.lhsIdx_val_of_single rfl i q
theorem rhs0 (i : S1000x128.Idx) (q : dot_S1000x256_S256x128_S1000x128_1_0_0_1_n_n.contr.Idx) : (dot_S1000x256_S256x128_S1000x128_1_0_0_1_n_n.rhsIdx i q 0).val = (q ⟨0, by decide⟩).val :=
  dot_S1000x256_S256x128_S1000x128_1_0_0_1_n_n.rhsIdx_val_of_single rfl i q
theorem rhs1 (i : S1000x128.Idx) (q : dot_S1000x256_S256x128_S1000x128_1_0_0_1_n_n.contr.Idx) : (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl

/-- The body's arithmetic on a block is linRow of the block of x, of w and of the bias row. -/
theorem pay_eq (x0 : Vec Ideal S1000x256 .f32) (x1 : Vec Ideal S256x128 .f32) (x2 : Vec Ideal S1x128 .f32) :
    k0_pay1 x0 x1 x2 = Cert.Conv.linRow (a := 1000) (K := 256) (b := 128) x0 x1 x2 := by
  unfold k0_pay1
  exact Cert.Conv.vec_lin dot_S1000x256_S256x128_S1000x128_1_0_0_1_n_n rfl rfl lhs0 lhs1 rhs0 rhs1 none x0 x1 x2 _ _ _

/-- The printed index maps over the 100 points: x and the output are at block row t, w and the bias at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of linRow of the three input arrays. -/
theorem flushed_eq (c : Dev nD) (t : Fin cfg0.N) :
    (dat0 V c).flushed 3 t = ((cfg0.win 3).blk t).view.read (Elt Ideal)
      (Cert.Conv.linRow (a := 100000) (K := 256) (b := 128) (V c main_arg0) (V c main_arg1) (V c main_v14)) := by
  show (cfg0.win 3).cut (grid0.coords t) ((dat0 V c).after 3 t) = _
  rw [after0_3]
  unfold out0_3
  rw [View.canon_unit_zero hz]
  simp only [View.ld_unit_zero (S := S1000x256) hz, View.ld_unit_zero (S := S256x128) hz, View.ld_unit_zero (S := S1x128) hz]
  rw [pay_eq]
  obtain ⟨e0, e1, e2, e3, e4, e5, e6, e7⟩ := idx_facts t
  funext j
  have h0 : ∀ k : Fin 256, ((cfg0.win 0).blk t).view.emb (ix2 (j 0 : Fin 1000) k)
      = ix2 ((((cfg0.win 3).blk t).view.emb j) 0 : Fin 100000) k := fun k => by
    funext a; apply Fin.ext
    match a with
    | ⟨0, _⟩ => show win0_0.index t (0 : Fin 2) * 1000 + 1 * (j 0).val = win0_3.index t (0 : Fin 2) * 1000 + 1 * (j 0).val; omega
    | ⟨1, _⟩ => show win0_0.index t (1 : Fin 2) * 256 + 1 * k.val = k.val; omega
  have h1 : ∀ k : Fin 256, ((cfg0.win 1).blk t).view.emb (ix2 k (j 1 : Fin 128))
      = ix2 k ((((cfg0.win 3).blk t).view.emb j) 1 : Fin 128) := fun k => by
    funext a; apply Fin.ext
    match a with
    | ⟨0, _⟩ => show win0_1.index t (0 : Fin 2) * 256 + 1 * k.val = k.val; omega
    | ⟨1, _⟩ => show win0_1.index t (1 : Fin 2) * 128 + 1 * (j 1).val = win0_3.index t (1 : Fin 2) * 128 + 1 * (j 1).val; omega
  have h2 : ((cfg0.win 2).blk t).view.emb (ix2 (0 : Fin 1) (j 1 : Fin 128))
      = ix2 (0 : Fin 1) ((((cfg0.win 3).blk t).view.emb j) 1 : Fin 128) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  let X : FVec Ideal ⟨2, ![100000, 256]⟩ .f32 := V c main_arg0
  let W : FVec Ideal ⟨2, ![256, 128]⟩ .f32 := V c main_arg1
  let B : FVec Ideal ⟨2, ![1, 128]⟩ .f32 := V c main_v14
  show (∑ k : Fin 256, X (((cfg0.win 0).blk t).view.emb (ix2 (j 0 : Fin 1000) k))
          * W (((cfg0.win 1).blk t).view.emb (ix2 k (j 1 : Fin 128))))
        + B (((cfg0.win 2).blk t).view.emb (ix2 (0 : Fin 1) (j 1 : Fin 128)))
    = (∑ k : Fin 256, X (ix2 ((((cfg0.win 3).blk t).view.emb j) 0 : Fin 100000) k)
          * W (ix2 k ((((cfg0.win 3).blk t).view.emb j) 1 : Fin 128)))
        + B (ix2 (0 : Fin 1) ((((cfg0.win 3).blk t).view.emb j) 1 : Fin 128))
  rw [h2]
  refine congrArg (· + _) (Finset.sum_congr rfl fun k _ => ?_)
  rw [h0 k, h1 k]
  rfl

/-- An index of the output array is in point t's block iff each coordinate is in the block's range on its axis. -/
theorem mem_blk (t : Fin cfg0.N) (i : S100000x128.Idx) :
    i ∈ ((cfg0.win 3).blk t).view.set ↔ ∀ a : Fin 2, win0_3.index t a * S1000x128.size a ≤ (i a).val ∧ (i a).val < win0_3.index t a * S1000x128.size a + S1000x128.size a := by
  show i ∈ ((View.whole main_v15).slice (win0_3.rect t)).set ↔ _
  rw [View.set_slice_whole, Rect.mem_set_unit]
  exact Iff.rfl

/-- Every row is in the block of the point numbered by the row divided by 1000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 100 := by decide
  let t : Fin cfg0.N := ⟨(i 0).val / 1000, by rw [hN]; omega⟩
  obtain ⟨e0, e1, e2, e3, e4, e5, e6, e7⟩ := idx_facts t
  have ht : t.val = (i 0).val / 1000 := rfl
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 128 ≤ (i 1).val ∧ (i 1).val < win0_3.index t (1 : Fin 2) * 128 + 128; omega

/-- The output array after the call is linRow of the three input arrays as the call found them. -/
theorem final (c : Dev nD) :
    (dat0 V c).arrAt 3 cfg0.N
      = Cert.Conv.linRow (a := 100000) (K := 256) (b := 128) (V c main_arg0) (V c main_arg1) (V c main_v14) :=
  (dat0 V c).arrAt_eq_of_cover 3 _ (fun t _ => flushed_eq V c t) cover

end Cert.KernelIdeal.Lin0

end
-- ==== Proof.Scale1.lean ====
/-
  A scaling call: what it leaves in its output array.

  The call walks 50 blocks of 2000 rows.  At block t it reads rows 2000·t … 2000·t + 1999 of the feature matrix and of
  the factor column, multiplies each row by its factor, and writes the block back to the same rows of the output.  The
  blocks tile the 100000 rows, so the output array ends holding scale n h of the two input arrays, whatever they held
  when the call was entered.
-/
import proofs.«102788_j77841987272990_1_alg».proof.Proof.Gen.KernelIdeal.Frame
import Idealize.ShloMosaic.Lib.Pipeline.Value
import proofs.«102788_j77841987272990_1_alg».proof.Proof.LibConvSteps

set_option maxRecDepth 16384

noncomputable section

namespace Cert.KernelIdeal.Scale1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is scale of the block of factors and the block of features. -/
theorem pay_eq (x0 : Vec Ideal S2000x128 .f32) (x1 : Vec Ideal S2000x1 .f32) :
    k1_pay1 x0 x1 = Cert.Conv.scale (a := 2000) (b := 128) x1 x0 := by
  unfold k1_pay1
  exact Cert.Conv.vec_scale x0 x1 _ _ _

/-- The printed index maps over the 50 points: every window is at block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of scale of the two input arrays. -/
theorem flushed_eq (c : Dev nD) (t : Fin cfg1.N) :
    (dat1 V c).flushed 2 t = ((cfg1.win 2).blk t).view.read (Elt Ideal)
      (Cert.Conv.scale (a := 100000) (b := 128) (V c main_v13) (V c main_v15)) := by
  show (cfg1.win 2).cut (grid1.coords t) ((dat1 V c).after 2 t) = _
  rw [after1_2]
  unfold out1_2
  rw [View.canon_unit_zero hz]
  simp only [View.ld_unit_zero (S := S2000x128) hz, View.ld_unit_zero (S := S2000x1) hz]
  rw [pay_eq]
  obtain ⟨e0, e1, e2, e3, e4, e5⟩ := idx_facts t
  funext j
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (j 0 : Fin 2000) (0 : Fin 1))
      = ix2 ((((cfg1.win 2).blk t).view.emb j) 0 : Fin 100000) (0 : Fin 1) := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 1 + 1 * 0 = 0; omega
  let H : FVec Ideal ⟨2, ![100000, 128]⟩ .f32 := V c main_v15
  let N : FVec Ideal ⟨2, ![100000, 1]⟩ .f32 := V c main_v13
  show H (((cfg1.win 0).blk t).view.emb j) * N (((cfg1.win 1).blk t).view.emb (ix2 (j 0 : Fin 2000) (0 : Fin 1)))
    = H (((cfg1.win 2).blk t).view.emb j) * N (ix2 ((((cfg1.win 2).blk t).view.emb j) 0 : Fin 100000) (0 : Fin 1))
  rw [h0, h1]
  rfl

/-- An index of the output array is in point t's block iff each coordinate is in the block's range on its axis. -/
theorem mem_blk (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v16).slice (win1_2.rect t)).set ↔ _
  rw [View.set_slice_whole, Rect.mem_set_unit]
  exact Iff.rfl

/-- Every row is in the block of the point numbered by the row divided by 2000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := by decide
  let t : Fin cfg1.N := ⟨(i 0).val / 2000, by rw [hN]; omega⟩
  obtain ⟨e0, e1, e2, e3, e4, e5⟩ := idx_facts t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the call is scale of the two input arrays as the call found them. -/
theorem final (c : Dev nD) :
    (dat1 V c).arrAt 2 cfg1.N = Cert.Conv.scale (a := 100000) (b := 128) (V c main_v13) (V c main_v15) :=
  (dat1 V c).arrAt_eq_of_cover 2 _ (fun t _ => flushed_eq V c t) cover

end Cert.KernelIdeal.Scale1

end
-- ==== Proof.Comb2.lean ====
/-
  A combining call: what it leaves in its output array.

  The call walks 50 blocks of 2000 rows.  At block t it reads rows 2000·t … 2000·t + 1999 of the aggregated messages,
  of the scaled features and of the factor column, adds the first two, multiplies each row of the sum by its factor,
  and writes the block back to the same rows of the output.  The blocks tile the 100000 rows, so the output array ends
  holding comb n g h of the three input arrays, whatever they held when the call was entered.
-/
import proofs.«102788_j77841987272990_1_alg».proof.Proof.Gen.KernelIdeal.Frame
import Idealize.ShloMosaic.Lib.Pipeline.Value
import proofs.«102788_j77841987272990_1_alg».proof.Proof.LibConvSteps

set_option maxRecDepth 16384

noncomputable section

namespace Cert.KernelIdeal.Comb2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is comb of the block of factors, the block of messages and the block of features. -/
theorem pay_eq (x0 x1 : Vec Ideal S2000x128 .f32) (x2 : Vec Ideal S2000x1 .f32) :
    k2_pay1 x0 x1 x2 = Cert.Conv.comb (a := 2000) (b := 128) x2 x0 x1 := by
  unfold k2_pay1
  exact Cert.Conv.vec_comb x0 x1 x2 _ _ _ _

/-- The printed index maps over the 50 points: every window is at block row t, block column 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of comb of the three input arrays. -/
theorem flushed_eq (c : Dev nD) (t : Fin cfg2.N) :
    (dat2 V c).flushed 3 t = ((cfg2.win 3).blk t).view.read (Elt Ideal)
      (Cert.Conv.comb (a := 100000) (b := 128) (V c main_v13) (V c main_v26) (V c main_v16)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz]
  rw [pay_eq]
  obtain ⟨e0, e1, e2, e3, e4, e5, e6, e7⟩ := idx_facts t
  funext j
  have h0 : ((cfg2.win 0).blk t).view.emb j = ((cfg2.win 3).blk t).view.emb j := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb j = ((cfg2.win 3).blk t).view.emb j := by
    funext a; apply Fin.ext
    match a with
    | ⟨0, _⟩ => show win2_1.index t (0 : Fin 2) * 2000 + 1 * (j 0).val = win2_3.index t (0 : Fin 2) * 2000 + 1 * (j 0).val; omega
    | ⟨1, _⟩ => show win2_1.index t (1 : Fin 2) * 128 + 1 * (j 1).val = win2_3.index t (1 : Fin 2) * 128 + 1 * (j 1).val; omega
  have h2 : ((cfg2.win 2).blk t).view.emb (ix2 (j 0 : Fin 2000) (0 : Fin 1))
      = ix2 ((((cfg2.win 3).blk t).view.emb j) 0 : Fin 100000) (0 : Fin 1) := by
    funext a; apply Fin.ext
    match a with
    | ⟨0, _⟩ => show win2_2.index t (0 : Fin 2) * 2000 + 1 * (j 0).val = win2_3.index t (0 : Fin 2) * 2000 + 1 * (j 0).val; omega
    | ⟨1, _⟩ => show win2_2.index t (1 : Fin 2) * 1 + 1 * 0 = 0; omega
  let G : FVec Ideal ⟨2, ![100000, 128]⟩ .f32 := V c main_v26
  let H : FVec Ideal ⟨2, ![100000, 128]⟩ .f32 := V c main_v16
  let N : FVec Ideal ⟨2, ![100000, 1]⟩ .f32 := V c main_v13
  show (G (((cfg2.win 0).blk t).view.emb j) + H (((cfg2.win 1).blk t).view.emb j))
      * N (((cfg2.win 2).blk t).view.emb (ix2 (j 0 : Fin 2000) (0 : Fin 1)))
    = (G (((cfg2.win 3).blk t).view.emb j) + H (((cfg2.win 3).blk t).view.emb j))
      * N (ix2 ((((cfg2.win 3).blk t).view.emb j) 0 : Fin 100000) (0 : Fin 1))
  rw [h0, h1, h2]
  rfl

/-- An index of the output array is in point t's block iff each coordinate is in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v27).slice (win2_3.rect t)).set ↔ _
  rw [View.set_slice_whole, Rect.mem_set_unit]
  exact Iff.rfl

/-- Every row is in the block of the point numbered by the row divided by 2000. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := by decide
  let t : Fin cfg2.N := ⟨(i 0).val / 2000, by rw [hN]; omega⟩
  obtain ⟨e0, e1, e2, e3, e4, e5, e6, e7⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The output array after the call is comb of the three input arrays as the call found them. -/
theorem final (c : Dev nD) :
    (dat2 V c).arrAt 3 cfg2.N
      = Cert.Conv.comb (a := 100000) (b := 128) (V c main_v13) (V c main_v26) (V c main_v16) :=
  (dat2 V c).arrAt_eq_of_cover 3 _ (fun t _ => flushed_eq V c t) cover

end Cert.KernelIdeal.Comb2

end
-- ==== Proof.Scale3.lean ====
/-
  A scaling call: what it leaves in its output array.

  The call walks 50 blocks of 2000 rows.  At block t it reads rows 2000·t … 2000·t + 1999 of the feature matrix and of
  the factor column, multiplies each row by its factor, and writes the block back to the same rows of the output.  The
  blocks tile the 100000 rows, so the output array ends holding scale n h of the two input arrays, whatever they held
  when the call was entered.
-/
import proofs.«102788_j77841987272990_1_alg».proof.Proof.Gen.KernelIdeal.Frame
import Idealize.ShloMosaic.Lib.Pipeline.Value
import proofs.«102788_j77841987272990_1_alg».proof.Proof.LibConvSteps

set_option maxRecDepth 16384

noncomputable section

namespace Cert.KernelIdeal.Scale3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is scale of the block of factors and the block of features. -/
theorem pay_eq (x0 : Vec Ideal S2000x128 .f32) (x1 : Vec Ideal S2000x1 .f32) :
    k3_pay1 x0 x1 = Cert.Conv.scale (a := 2000) (b := 128) x1 x0 := by
  unfold k3_pay1
  exact Cert.Conv.vec_scale x0 x1 _ _ _

/-- The printed index maps over the 50 points: every window is at block row t, block column 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of scale of the two input arrays. -/
theorem flushed_eq (c : Dev nD) (t : Fin cfg3.N) :
    (dat3 V c).flushed 2 t = ((cfg3.win 2).blk t).view.read (Elt Ideal)
      (Cert.Conv.scale (a := 100000) (b := 128) (V c main_v13) (V c main_v27)) := by
  show (cfg3.win 2).cut (grid3.coords t) ((dat3 V c).after 2 t) = _
  rw [after3_2]
  unfold out3_2
  rw [View.canon_unit_zero hz]
  simp only [View.ld_unit_zero (S := S2000x128) hz, View.ld_unit_zero (S := S2000x1) hz]
  rw [pay_eq]
  obtain ⟨e0, e1, e2, e3, e4, e5⟩ := idx_facts t
  funext j
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (j 0 : Fin 2000) (0 : Fin 1))
      = ix2 ((((cfg3.win 2).blk t).view.emb j) 0 : Fin 100000) (0 : Fin 1) := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 1 + 1 * 0 = 0; omega
  let H : FVec Ideal ⟨2, ![100000, 128]⟩ .f32 := V c main_v27
  let N : FVec Ideal ⟨2, ![100000, 1]⟩ .f32 := V c main_v13
  show H (((cfg3.win 0).blk t).view.emb j) * N (((cfg3.win 1).blk t).view.emb (ix2 (j 0 : Fin 2000) (0 : Fin 1)))
    = H (((cfg3.win 2).blk t).view.emb j) * N (ix2 ((((cfg3.win 2).blk t).view.emb j) 0 : Fin 100000) (0 : Fin 1))
  rw [h0, h1]
  rfl

/-- An index of the output array is in point t's block iff each coordinate is in the block's range on its axis. -/
theorem mem_blk (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v28).slice (win3_2.rect t)).set ↔ _
  rw [View.set_slice_whole, Rect.mem_set_unit]
  exact Iff.rfl

/-- Every row is in the block of the point numbered by the row divided by 2000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 50 := by decide
  let t : Fin cfg3.N := ⟨(i 0).val / 2000, by rw [hN]; omega⟩
  obtain ⟨e0, e1, e2, e3, e4, e5⟩ := idx_facts t
  have ht : t.val = (i 0).val / 2000 := rfl
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The output array after the call is scale of the two input arrays as the call found them. -/
theorem final (c : Dev nD) :
    (dat3 V c).arrAt 2 cfg3.N = Cert.Conv.scale (a := 100000) (b := 128) (V c main_v13) (V c main_v27) :=
  (dat3 V c).arrAt_eq_of_cover 2 _ (fun t _ => flushed_eq V c t) cover

end Cert.KernelIdeal.Scale3

end
-- ==== Proof.Comb4.lean ====
/-
  A combining call: what it leaves in its output array.

  The call walks 50 blocks of 2000 rows.  At block t it reads rows 2000·t … 2000·t + 1999 of the aggregated messages,
  of the scaled features and of the factor column, adds the first two, multiplies each row of the sum by its factor,
  and writes the block back to the same rows of the output.  The blocks tile the 100000 rows, so the output array ends
  holding comb n g h of the three input arrays, whatever they held when the call was entered.
-/
import proofs.«102788_j77841987272990_1_alg».proof.Proof.Gen.KernelIdeal.Frame
import Idealize.ShloMosaic.Lib.Pipeline.Value
import proofs.«102788_j77841987272990_1_alg».proof.Proof.LibConvSteps

set_option maxRecDepth 16384

noncomputable section

namespace Cert.KernelIdeal.Comb4

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The body's arithmetic on a block is comb of the block of factors, the block of messages and the block of features. -/
theorem pay_eq (x0 x1 : Vec Ideal S2000x128 .f32) (x2 : Vec Ideal S2000x1 .f32) :
    k4_pay1 x0 x1 x2 = Cert.Conv.comb (a := 2000) (b := 128) x2 x0 x1 := by
  unfold k4_pay1
  exact Cert.Conv.vec_comb x0 x1 x2 _ _ _ _

/-- The printed index maps over the 50 points: every window is at block row t, block column 0. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point t writes back is block t of comb of the three input arrays. -/
theorem flushed_eq (c : Dev nD) (t : Fin cfg4.N) :
    (dat4 V c).flushed 3 t = ((cfg4.win 3).blk t).view.read (Elt Ideal)
      (Cert.Conv.comb (a := 100000) (b := 128) (V c main_v13) (V c main_v38) (V c main_v28)) := by
  show (cfg4.win 3).cut (grid4.coords t) ((dat4 V c).after 3 t) = _
  rw [after4_3]
  unfold out4_3
  rw [View.canon_unit_zero hz]
  simp only [View.ld_unit_zero (S := S2000x128) hz, View.ld_unit_zero (S := S2000x1) hz]
  rw [pay_eq]
  obtain ⟨e0, e1, e2, e3, e4, e5, e6, e7⟩ := idx_facts t
  funext j
  have h0 : ((cfg4.win 0).blk t).view.emb j = ((cfg4.win 3).blk t).view.emb j := by
    funext a; apply Fin.ext
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 128 + 1 * (j 1).val = win4_3.index t (1 : Fin 2) * 128 + 1 * (j 1).val; omega
  have h1 : ((cfg4.win 1).blk t).view.emb j = ((cfg4.win 3).blk t).view.emb j := by
    funext a; apply Fin.ext
    match a with
    | ⟨0, _⟩ => show win4_1.index t (0 : Fin 2) * 2000 + 1 * (j 0).val = win4_3.index t (0 : Fin 2) * 2000 + 1 * (j 0).val; omega
    | ⟨1, _⟩ => show win4_1.index t (1 : Fin 2) * 128 + 1 * (j 1).val = win4_3.index t (1 : Fin 2) * 128 + 1 * (j 1).val; omega
  have h2 : ((cfg4.win 2).blk t).view.emb (ix2 (j 0 : Fin 2000) (0 : Fin 1))
      = ix2 ((((cfg4.win 3).blk t).view.emb j) 0 : Fin 100000) (0 : Fin 1) := by
    funext a; apply Fin.ext
    match a with
    | ⟨0, _⟩ => show win4_2.index t (0 : Fin 2) * 2000 + 1 * (j 0).val = win4_3.index t (0 : Fin 2) * 2000 + 1 * (j 0).val; omega
    | ⟨1, _⟩ => show win4_2.index t (1 : Fin 2) * 1 + 1 * 0 = 0; omega
  let G : FVec Ideal ⟨2, ![100000, 128]⟩ .f32 := V c main_v38
  let H : FVec Ideal ⟨2, ![100000, 128]⟩ .f32 := V c main_v28
  let N : FVec Ideal ⟨2, ![100000, 1]⟩ .f32 := V c main_v13
  show (G (((cfg4.win 0).blk t).view.emb j) + H (((cfg4.win 1).blk t).view.emb j))
      * N (((cfg4.win 2).blk t).view.emb (ix2 (j 0 : Fin 2000) (0 : Fin 1)))
    = (G (((cfg4.win 3).blk t).view.emb j) + H (((cfg4.win 3).blk t).view.emb j))
      * N (ix2 ((((cfg4.win 3).blk t).view.emb j) 0 : Fin 100000) (0 : Fin 1))
  rw [h0, h1, h2]
  rfl

/-- An index of the output array is in point t's block iff each coordinate is in the block's range on its axis. -/
theorem mem_blk (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v39).slice (win4_3.rect t)).set ↔ _
  rw [View.set_slice_whole, Rect.mem_set_unit]
  exact Iff.rfl

/-- Every row is in the block of the point numbered by the row divided by 2000. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 50 := by decide
  let t : Fin cfg4.N := ⟨(i 0).val / 2000, by rw [hN]; omega⟩
  obtain ⟨e0, e1, e2, e3, e4, e5, e6, e7⟩ := idx_facts t
  have ht : t.val = (i 0).val / 2000 := rfl
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The output array after the call is comb of the three input arrays as the call found them. -/
theorem final (c : Dev nD) :
    (dat4 V c).arrAt 3 cfg4.N
      = Cert.Conv.comb (a := 100000) (b := 128) (V c main_v13) (V c main_v38) (V c main_v28) :=
  (dat4 V c).arrAt_eq_of_cover 3 _ (fun t _ => flushed_eq V c t) cover

end Cert.KernelIdeal.Comb4

end
-- ==== Proof.KernelValue.lean ====
/-
  What the kernel's program computes.

  The buffer contents at the program's boundaries are followed from the launch to the return.  With e the edge list,
  n the column of normalising factors of e and agg the aggregation along e:
    after the projection call the feature buffer holds         f0 = lin x w bias,
    after the first scaling call                                f1 = scale n f0,
    after the host lines                                        agg f1,
    after the first combining call                              f2 = comb n (agg f1) f1,
    after the second scaling call                               f3 = scale n f2,
    after the host lines                                        agg f3,
    after the second combining call the result buffer holds     comb n (agg f3) f3,
  which is two layers from f0.  Between the boundaries, a buffer no call writes and no host line writes keeps its
  contents — a call's input array included, since a call only reads it —: that is how the factor column, the
  destinations and the sources reach the later segments.
-/
import proofs.«102788_j77841987272990_1_alg».proof.Proof.KernelRun
import proofs.«102788_j77841987272990_1_alg».proof.Proof.Edges
import proofs.«102788_j77841987272990_1_alg».proof.Proof.Lin0
import proofs.«102788_j77841987272990_1_alg».proof.Proof.Scale1
import proofs.«102788_j77841987272990_1_alg».proof.Proof.Comb2
import proofs.«102788_j77841987272990_1_alg».proof.Proof.Scale3
import proofs.«102788_j77841987272990_1_alg».proof.Proof.Comb4

set_option maxRecDepth 16384

noncomputable section

namespace Cert.KernelIdeal.Value

open Cert.KernelIdeal Cert.KernelIdeal.Gen Cert.KernelIdeal.Edges
open Idealize.ShloMosaic Idealize.ShloMosaic.TcCoe Idealize.SL.Sem

variable (m : (ℓ : Loc nD τ sig) → Buf (Elt Ideal) ℓ) (ρ : Dev nD → PrngReg)

/-- The factor column of the launch memory's edge list. -/
abbrev nrm (c : Dev nD) : FVec Ideal ⟨2, ![100000, 1]⟩ .f32 := normOf (dst (m ((c.tc : Thread nD τ).loc main_arg3)))
/-- The aggregation along the launch memory's edge list. -/
abbrev agg (c : Dev nD) (h : FVec Ideal ⟨2, ![100000, 128]⟩ .f32) : FVec Ideal ⟨2, ![100000, 128]⟩ .f32 :=
  aggOf (dst (m ((c.tc : Thread nD τ).loc main_arg3))) (src (m ((c.tc : Thread nD τ).loc main_arg3))) h

def f0 (c : Dev nD) : FVec Ideal ⟨2, ![100000, 128]⟩ .f32 :=
  Cert.Conv.lin (a := 100000) (K := 256) (b := 128) (m ((c.tc : Thread nD τ).loc main_arg0)) (m ((c.tc : Thread nD τ).loc main_arg1))
    (m ((c.tc : Thread nD τ).loc main_arg2))
def f1 (c : Dev nD) : FVec Ideal ⟨2, ![100000, 128]⟩ .f32 := Cert.Conv.scale (nrm m c) (f0 m c)
def f2 (c : Dev nD) : FVec Ideal ⟨2, ![100000, 128]⟩ .f32 := Cert.Conv.comb (nrm m c) (agg m c (f1 m c)) (f1 m c)
def f3 (c : Dev nD) : FVec Ideal ⟨2, ![100000, 128]⟩ .f32 := Cert.Conv.scale (nrm m c) (f2 m c)
def f4 (c : Dev nD) : FVec Ideal ⟨2, ![100000, 128]⟩ .f32 := Cert.Conv.comb (nrm m c) (agg m c (f3 m c)) (f3 m c)

/-! ## The factor column, the destinations and the sources at each boundary -/

theorem nrm1 (c : Dev nD) : W1 m ρ c (Proc.devRef .tc main_v13) = nrm m c := W1_norm m ρ c
theorem nrm2 (c : Dev nD) : W2 m ρ c (Proc.devRef .tc main_v13) = nrm m c := (W2_of_ne m ρ c main_v13 (by decide)).trans (nrm1 m ρ c)
theorem nrm3 (c : Dev nD) : W3 m ρ c (Proc.devRef .tc main_v13) = nrm m c :=
  ((W3_arr m ρ c 1).trans (((dat1 (V2 m ρ) c).arrAt_in 1 rfl _).trans (A_eq1 (V2 m ρ) c 1))).trans (nrm2 m ρ c)
theorem nrm4 (c : Dev nD) : W4 m ρ c (Proc.devRef .tc main_v13) = nrm m c := (W4_keep m ρ c main_v13 (.inr (.inl rfl))).trans (nrm3 m ρ c)
theorem nrm5 (c : Dev nD) : W5 m ρ c (Proc.devRef .tc main_v13) = nrm m c :=
  ((W5_arr m ρ c 2).trans (((dat2 (V4 m ρ) c).arrAt_in 2 rfl _).trans (A_eq2 (V4 m ρ) c 2))).trans (nrm4 m ρ c)
theorem nrm6 (c : Dev nD) : W6 m ρ c (Proc.devRef .tc main_v13) = nrm m c :=
  ((W6_arr m ρ c 1).trans (((dat3 (V5 m ρ) c).arrAt_in 1 rfl _).trans (A_eq3 (V5 m ρ) c 1))).trans (nrm5 m ρ c)
theorem nrm7 (c : Dev nD) : W7 m ρ c (Proc.devRef .tc main_v13) = nrm m c := (W7_keep m ρ c main_v13 (.inr rfl)).trans (nrm6 m ρ c)

theorem dst3 (c : Dev nD) : W3 m ρ c (Proc.devRef .tc main_v1) = dst (m ((c.tc : Thread nD τ).loc main_arg3)) :=
  (W3_of_ne m ρ c main_v1 (by decide)).trans ((W2_of_ne m ρ c main_v1 (by decide)).trans (W1_dst m ρ c))
theorem src3 (c : Dev nD) : W3 m ρ c (Proc.devRef .tc main_v3) = src (m ((c.tc : Thread nD τ).loc main_arg3)) :=
  (W3_of_ne m ρ c main_v3 (by decide)).trans ((W2_of_ne m ρ c main_v3 (by decide)).trans (W1_src m ρ c))
theorem dst6 (c : Dev nD) : W6 m ρ c (Proc.devRef .tc main_v1) = dst (m ((c.tc : Thread nD τ).loc main_arg3)) :=
  (W6_of_ne m ρ c main_v1 (by decide)).trans ((W5_of_ne m ρ c main_v1 (by decide)).trans
    ((W4_keep m ρ c main_v1 (.inr (.inr (.inl rfl)))).trans (dst3 m ρ c)))
theorem src6 (c : Dev nD) : W6 m ρ c (Proc.devRef .tc main_v3) = src (m ((c.tc : Thread nD τ).loc main_arg3)) :=
  (W6_of_ne m ρ c main_v3 (by decide)).trans ((W5_of_ne m ρ c main_v3 (by decide)).trans
    ((W4_keep m ρ c main_v3 (.inr (.inr (.inr rfl)))).trans (src3 m ρ c)))

/-! ## The feature buffers at each boundary -/

/-- After the projection call. -/
theorem at2 (c : Dev nD) : W2 m ρ c (Proc.devRef .tc main_v15) = f0 m c :=
  ((W2_arr m ρ c 3).trans (Lin0.final (V1 m ρ) c)).trans
    ((Cert.Conv.linRow_congr (W1_arg0 m ρ c) (W1_arg1 m ρ c) (W1_bias m ρ c)).trans
      (Cert.Conv.linRow_cast _ _ _ _))

/-- After the first scaling call. -/
theorem at3 (c : Dev nD) : W3 m ρ c (Proc.devRef .tc main_v16) = f1 m c :=
  ((W3_arr m ρ c 2).trans (Scale1.final (V2 m ρ) c)).trans (Cert.Conv.scale_congr (nrm2 m ρ c) (at2 m ρ c))

/-- After the host lines: the aggregated messages, and the scaled features kept. -/
theorem at4_agg (c : Dev nD) : W4 m ρ c (Proc.devRef .tc main_v26) = agg m c (f1 m c) := by
  rw [W4_agg, dst3, src3, at3]
theorem at4_keep (c : Dev nD) : W4 m ρ c (Proc.devRef .tc main_v16) = f1 m c :=
  (W4_keep m ρ c main_v16 (.inl rfl)).trans (at3 m ρ c)

/-- After the first combining call. -/
theorem at5 (c : Dev nD) : W5 m ρ c (Proc.devRef .tc main_v27) = f2 m c :=
  ((W5_arr m ρ c 3).trans (Comb2.final (V4 m ρ) c)).trans
    (Cert.Conv.comb_congr (nrm4 m ρ c) (at4_agg m ρ c) (at4_keep m ρ c))

/-- After the second scaling call. -/
theorem at6 (c : Dev nD) : W6 m ρ c (Proc.devRef .tc main_v28) = f3 m c :=
  ((W6_arr m ρ c 2).trans (Scale3.final (V5 m ρ) c)).trans (Cert.Conv.scale_congr (nrm5 m ρ c) (at5 m ρ c))

/-- After the host lines. -/
theorem at7_agg (c : Dev nD) : W7 m ρ c (Proc.devRef .tc main_v38) = agg m c (f3 m c) := by
  rw [W7_agg, dst6, src6, at6]
theorem at7_keep (c : Dev nD) : W7 m ρ c (Proc.devRef .tc main_v28) = f3 m c :=
  (W7_keep m ρ c main_v28 (.inl rfl)).trans (at6 m ρ c)

/-- After the second combining call: the result. -/
theorem at8 (c : Dev nD) : W8 m ρ c (Proc.devRef .tc main_v39) = f4 m c :=
  ((W8_arr m ρ c 3).trans (Comb4.final (V7 m ρ) c)).trans
    (Cert.Conv.comb_congr (nrm7 m ρ c) (at7_agg m ρ c) (at7_keep m ρ c))

/-- The result is two layers from the projected features. -/
theorem f4_eq (c : Dev nD) : f4 m c = Cert.Conv.twoLayers (nrm m c) (agg m c) (f0 m c) := rfl

/-- The kernel's run: every weakly fair execution terminates without a fault with the result buffer at two layers
    from the projected features of the launch memory's arguments, and the arguments as launched. -/
theorem run : θ_run defs (onTc (τ := τ) (main (F := Ideal))) ⟨m, fun _ => 0, ρ⟩ (fun r => ∀ c : Dev nD,
      r.2.mem ((c.tc : Thread nD τ).loc main_v39) = Cert.Conv.twoLayers (nrm m c) (agg m c) (f0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans ((at8 m ρ c).trans (f4_eq m c)), (h c).2⟩)
    (Cert.KernelIdeal.Run.run_result m ρ)

end Cert.KernelIdeal.Value

end
-- ==== Proof.RefValue.lean ====
/-
  What the reference computes, stage by stage.

  With e the edge list, n the column of normalising factors of e and agg the aggregation along e, the reference's
  stages are: the projection lin x w bias; then, twice, the factor times the features (scale, the factor on the
  left), the aggregation of that plus that (its sum), and the factor times the sum (comb).  So its result is two layers
  from the projection.  The host's products commute into the entrywise forms; nothing else is rearranged, and the
  aggregation and the factor column are left as the host's own terms.
-/
import proofs.«102788_j77841987272990_1_alg».proof.Proof.Gen.ReferenceIdeal.Read
import proofs.«102788_j77841987272990_1_alg».proof.Proof.LibConvSteps

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The column of normalising factors, as the reference computes it from the edge list. -/
def nrm (x3 : (⟨S2x1600000, .i32⟩ : BufTy).Contents (Elt Ideal)) : FVec Ideal ⟨2, ![100000, 1]⟩ .f32 :=
  val_main_v13 (F := Ideal) x3

/-- The aggregation along the edge list, as the reference computes it in its first layer: rows gathered at the
    sources, summed into the destinations' rows. -/
def agg (x3 : (⟨S2x1600000, .i32⟩ : BufTy).Contents (Elt Ideal)) (h : FVec Ideal ⟨2, ![100000, 128]⟩ .f32) :
    FVec Ideal ⟨2, ![100000, 128]⟩ .f32 :=
  Host.scatterAdd (F := Ideal) scatter_S100000x128_S1600000x1_S1600000x128_1_0_0_1 (val_main_v27 (F := Ideal))
    (val_main_v28 (F := Ideal) x3)
    (Host.gather gather_S100000x128_S1600000x1_S1600000x128_1_0_n_n_0_1_1128 h (val_main_v25 (F := Ideal) x3))

/-- The second layer's aggregation is spelt with other buffers holding the same index arrays: it is the same function. -/
theorem agg_second (x3 : (⟨S2x1600000, .i32⟩ : BufTy).Contents (Elt Ideal)) (h : FVec Ideal ⟨2, ![100000, 128]⟩ .f32) :
    Host.scatterAdd (F := Ideal) scatter_S100000x128_S1600000x1_S1600000x128_1_0_0_1 (val_main_v42 (F := Ideal))
      (val_main_v43 (F := Ideal) x3)
      (Host.gather gather_S100000x128_S1600000x1_S1600000x128_1_0_n_n_0_1_1128 h (val_main_v40 (F := Ideal) x3))
    = agg x3 h := rfl

variable (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S2x1600000, .i32⟩ : BufTy).Contents (Elt Ideal))

/-- The projection. -/
theorem stage17 : val_main_v17 (F := Ideal) x0 x1 x2 = Cert.Conv.lin (a := 100000) (K := 256) (b := 128) x0 x1 x2 := by
  unfold val_main_v17 val_main_v14 val_main_v16 val_main_v15
  exact Cert.Conv.host_lin dot_S100000x256_S256x128_S100000x128_1_0_0_1_n_n rfl rfl lhs_main_v14_0 lhs_main_v14_1 rhs_main_v14_0 rhs_main_v14_1 none x0 x1 x2 _ _

/-- First layer: the features scaled. -/
theorem stage19 : val_main_v19 (F := Ideal) x0 x1 x2 x3 = Cert.Conv.scale (nrm x3) (Cert.Conv.lin (a := 100000) (K := 256) (b := 128) x0 x1 x2) := by
  unfold val_main_v19 val_main_v18
  rw [stage17]
  exact Cert.Conv.host_scale _ _ _

/-- First layer: the messages aggregated. -/
theorem stage29 : val_main_v29 (F := Ideal) x0 x1 x2 x3 = agg x3 (val_main_v19 (F := Ideal) x0 x1 x2 x3) := rfl

/-- First layer: the sum scaled. -/
theorem stage32 : val_main_v32 (F := Ideal) x0 x1 x2 x3
    = Cert.Conv.comb (nrm x3) (agg x3 (val_main_v19 (F := Ideal) x0 x1 x2 x3)) (val_main_v19 (F := Ideal) x0 x1 x2 x3) := by
  unfold val_main_v32 val_main_v31 val_main_v30
  rw [stage29]
  exact Cert.Conv.host_comb _ _ _ _

/-- Second layer: the features scaled. -/
theorem stage34 : val_main_v34 (F := Ideal) x0 x1 x2 x3 = Cert.Conv.scale (nrm x3) (val_main_v32 (F := Ideal) x0 x1 x2 x3) := by
  unfold val_main_v34 val_main_v33
  exact Cert.Conv.host_scale _ _ _

/-- Second layer: the messages aggregated. -/
theorem stage44 : val_main_v44 (F := Ideal) x0 x1 x2 x3 = agg x3 (val_main_v34 (F := Ideal) x0 x1 x2 x3) := by
  unfold val_main_v44 val_main_v41
  exact agg_second x3 _

/-- Second layer: the sum scaled — the result. -/
theorem stage47 : val_main_v47 (F := Ideal) x0 x1 x2 x3
    = Cert.Conv.comb (nrm x3) (agg x3 (val_main_v34 (F := Ideal) x0 x1 x2 x3)) (val_main_v34 (F := Ideal) x0 x1 x2 x3) := by
  unfold val_main_v47 val_main_v46 val_main_v45
  rw [stage44]
  exact Cert.Conv.host_comb _ _ _ _

/-- The reference's result is two layers from the projection. -/
theorem result_eq : val_main_v47 (F := Ideal) x0 x1 x2 x3
    = Cert.Conv.twoLayers (nrm x3) (agg x3) (Cert.Conv.lin (a := 100000) (K := 256) (b := 128) x0 x1 x2) := by
  rw [stage47, stage34, stage32, stage19]
  rfl

end Cert.ReferenceIdeal.RefValue

end
-- ==== Proof.Bridge.lean ====
/-
  The two programs compute the factor column and the aggregation with the same host operations.

  Each program prints its own copy of the shapes and of the gather and scatter dimension records, with the same
  contents; so the reference's factor column and aggregation are, term for term, the kernel program's, and two layers
  from the same projection are the same array.
-/
import proofs.«102788_j77841987272990_1_alg».proof.Proof.KernelValue
import proofs.«102788_j77841987272990_1_alg».proof.Proof.RefValue

set_option maxRecDepth 16384

noncomputable section

namespace Cert.Bridge

open Idealize.ShloMosaic Idealize.ShloMosaic.TcCoe Idealize.SL.Sem

variable (x0 : (⟨Cert.ReferenceIdeal.S100000x256, .f32⟩ : BufTy).Contents (Elt Ideal))
  (x1 : (⟨Cert.ReferenceIdeal.S256x128, .f32⟩ : BufTy).Contents (Elt Ideal))
  (x2 : (⟨Cert.ReferenceIdeal.S128, .f32⟩ : BufTy).Contents (Elt Ideal))
  (x3 : (⟨Cert.ReferenceIdeal.S2x1600000, .i32⟩ : BufTy).Contents (Elt Ideal))

/-- The factor column: one term in both programs. -/
theorem nrm_eq : Cert.ReferenceIdeal.RefValue.nrm x3 = Cert.KernelIdeal.Edges.normOf (Cert.KernelIdeal.Edges.dst x3) := rfl

/-- The aggregation: one term in both programs. -/
theorem agg_eq : Cert.ReferenceIdeal.RefValue.agg x3
    = fun h => Cert.KernelIdeal.Edges.aggOf (Cert.KernelIdeal.Edges.dst x3) (Cert.KernelIdeal.Edges.src x3) h := rfl

/-- Two layers from the same projection, with either program's factor column and aggregation. -/
theorem twoLayers_eq :
    Cert.Conv.twoLayers (Cert.ReferenceIdeal.RefValue.nrm x3) (Cert.ReferenceIdeal.RefValue.agg x3)
        (Cert.Conv.lin (a := 100000) (K := 256) (b := 128) x0 x1 x2)
      = Cert.Conv.twoLayers (Cert.KernelIdeal.Edges.normOf (Cert.KernelIdeal.Edges.dst x3))
          (fun h => Cert.KernelIdeal.Edges.aggOf (Cert.KernelIdeal.Edges.dst x3) (Cert.KernelIdeal.Edges.src x3) h)
          (Cert.Conv.lin (a := 100000) (K := 256) (b := 128) x0 x1 x2) := by
  rw [nrm_eq, agg_eq]

end Cert.Bridge

end
-- ==== Proof.lean ====
/-
  A two-layer graph convolution without nonlinearity: a projection x·w + bias followed, twice, by
  h ↦ n · (A (n · h) + n · h), where n(p) = 1 / sqrt(1 + indegree(p)) and A sums the rows of its argument along the edges
  into their destination rows.

  The kernel's program computes the projection in one call over row blocks, each scaling n · h in a call, each
  n · (g + h) in a call, and the degrees, the factor column and the two aggregations with host operations between the
  calls; the reference computes every step with host operations.  On the extended reals the two results are equal
  entry by entry: narrowing the projection's operands changes no value, a block's entries of the projection read only
  that block's rows of x, the blocks of every call tile the 100000 rows, a product commutes (the kernel multiplies by
  the factor on the right, the reference on the left), and the aggregation and the factor column are the same host
  terms in both programs.  No distributive law and no cancellation is used, so the finiteness of the inputs is not
  needed for the value; it is not needed for termination either.  The idealization rewrote nothing, so there is
  nothing to preserve.
-/
import proofs.«102788_j77841987272990_1_alg».proof.Defs
import proofs.«102788_j77841987272990_1_alg».proof.Proof.Gen.Kernel
import proofs.«102788_j77841987272990_1_alg».proof.Proof.Gen.Kernel.Frame
import proofs.«102788_j77841987272990_1_alg».proof.Proof.Gen.KernelIdeal
import proofs.«102788_j77841987272990_1_alg».proof.Proof.Gen.KernelIdeal.Frame
import proofs.«102788_j77841987272990_1_alg».proof.Proof.Gen.ReferenceIdeal
import proofs.«102788_j77841987272990_1_alg».proof.Proof.Gen.ReferenceIdeal.Run
import proofs.«102788_j77841987272990_1_alg».proof.Proof.Gen.ReferenceIdeal.Read
import proofs.«102788_j77841987272990_1_alg».proof.Proof.Gen.Pre_finite_inputs
import proofs.«102788_j77841987272990_1_alg».proof.Proof.KernelValue
import proofs.«102788_j77841987272990_1_alg».proof.Proof.RefValue
import proofs.«102788_j77841987272990_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program, as printed, terminates without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with two layers from the projection of those
    arguments, with the same factor column and the same aggregation. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.result_eq,
    (hagree c).1, (hagree c).2.1, (hagree c).2.2.1, (hagree c).2.2.2]
  exact Cert.Bridge.twoLayers_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
